-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S4096x4096 32) (main_arg2 : FVec F S4096 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩
abbrev S2048x256 : Shape := ⟨2, ![2048, 256]⟩
abbrev S1024x256 : Shape := ⟨2, ![1024, 256]⟩
abbrev S1x1024 : Shape := ⟨2, ![1, 1024]⟩
abbrev S2048x1024 : Shape := ⟨2, ![2048, 1024]⟩

abbrev nBuf : Space → Nat
  | .hbm => 9
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S8192x4096, .f32⟩
  | .hbm, ⟨5, _⟩ => ⟨S1x4096, .f32⟩
  | .hbm, ⟨6, _⟩ => ⟨S1x4096, .f32⟩
  | .hbm, ⟨7, _⟩ => ⟨S8192x4096, .f32⟩
  | .hbm, ⟨8, _⟩ => ⟨S4x2048x4096, .f32⟩
  | .local _ .vmem, ⟨0, _⟩ => ⟨S2048x256, .f32⟩
  | .local _ .vmem, ⟨1, _⟩ => ⟨S2048x256, .f32⟩
  | .local _ .vmem, ⟨2, _⟩ => ⟨S1024x256, .i32⟩
  | .local _ .vmem, ⟨3, _⟩ => ⟨S1024x256, .i32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S2048x1024, .f32⟩
  | .local _ .vmem, ⟨9, _⟩ => ⟨S2048x1024, .f32⟩
  | .local _ .vmem, ⟨10, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 16], ![false, false, false]⟩

def k0_cond2 (i : grid0.Coords) : BitVec 1 :=
  let arg2 : BitVec 32 := BitVec.ofNat 32 (i 2).val
  let c15_i32 : BitVec 32 := 15#32
  let v14 : BitVec 1 := Scalar.cmpi .eq arg2 c15_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S4x2048x4096 : S8192x4096.ShapeCasts S4x2048x4096
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x4096.size a
  hwx0_0 : ∀ i : grid0.Coords, EltTy.bits .f32 = 32 ∨ (Rect.block (s := S8192x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x4096.size a
  hwx0_1 : ∀ i : grid0.Coords, EltTy.bits .i32 = 32 ∨ (Rect.block (s := S4096x4096) S1024x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S8192x4096.size a
  hwx0_4 : ∀ i : grid0.Coords, EltTy.bits .f32 = 32 ∨ (Rect.block (s := S8192x4096) S2048x1024.size (cc0_transform_4 i) (hinb0_4 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S4096x1 : Shape := ⟨2, ![4096, 1]⟩
abbrev S1x1x4096 : Shape := ⟨3, ![1, 1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S4096x4096, .f32⟩
  | .hbm, ⟨5, _⟩ => ⟨S4096x1, .f32⟩
  | .hbm, ⟨6, _⟩ => ⟨S4096x4096, .f32⟩
  | .hbm, ⟨7, _⟩ => ⟨S4096x4096, .f32⟩
  | .hbm, ⟨8, _⟩ => ⟨S4x2048x4096, .f32⟩
  | .hbm, ⟨9, _⟩ => ⟨S1x1x4096, .f32⟩
  | .hbm, ⟨10, _⟩ => ⟨S4x2048x4096, .f32⟩
  | .hbm, ⟨11, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What one run of the body leaves behind, case by case, as the stored values of Payload's three formulas.

  The body works on whole buffers: every load reads a whole buffer and every store overwrites one, so what a buffer holds
  afterwards is the value of the last store into it, and a load that follows a store reads that store's value.

  * first column block (k = 0): the accumulator is reset and then holds  step(x, w, zero);
  * middle column blocks:       the accumulator holds                    step(x, w, acc);
  * last column block (k = 15): the accumulator holds step(x, w, acc) and the output block  finish(step(x, w, acc), s, b).

  Here x, w, s, b are the blocks the body finds in its input buffers and acc what the previous run left in the accumulator.
  The statements hold for every float instance.
-/
import proofs.«104973_j74783970558154_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem zero_offsets : (![0, 0] : Fin 2 → Nat) = fun _ => 0 := funext fun a => by fin_cases a <;> rfl

/-- First column block: the accumulator ends at one accumulation step from the zero block. -/
theorem acc_first (c : Dev nD) (i : grid0.Coords) (a3 : Memref sig .tc .vmem S2048x256 .f32) (h3 : a3.IsWhole) (a4 : Memref sig .tc .vmem S1024x256 .i32) (h4 : a4.IsWhole) (a5 : Memref sig .tc .vmem S1x1024 .f32) (h5 : a5.IsWhole) (a6 : Memref sig .tc .vmem S1x1024 .f32) (h6 : a6.IsWhole) (a7 : Memref sig .tc .vmem S2048x1024 .f32) (h7 : a7.IsWhole) (a8 : Memref sig .tc .vmem S2048x1024 .f32) (h8 : a8.IsWhole) (hc0 : cond0_0 i) (hc1 : ¬cond0_1 i)
    (x0 : Vec F S2048x256 .f32) (x1 : Vec F S1024x256 .i32) (x2 : Vec F S1x1024 .f32) (x3 : Vec F S1x1024 .f32) :
    sout0_A_0 c i a3 h3 a4 h4 a5 h5 a6 h6 a7 h7 a8 h8 hc0 hc1 x0 x1 x2 x3 = k0_pay2 x0 x1 (k0_pay1 (F := F)) := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S2048x1024) zero_offsets, View.readCov_unit_zero (S := S2048x1024) _ zero_offsets]
  simp only [View.readAt_eq_ld, h3.read_unread, h4.read_unread, View.ld_unit_zero (S := S2048x256) zero_offsets,
    View.ld_unit_zero (S := S1024x256) zero_offsets]

/-- A middle column block: the accumulator ends at one accumulation step from what it held. -/
theorem acc_middle (c : Dev nD) (i : grid0.Coords) (a3 : Memref sig .tc .vmem S2048x256 .f32) (h3 : a3.IsWhole) (a4 : Memref sig .tc .vmem S1024x256 .i32) (h4 : a4.IsWhole) (a5 : Memref sig .tc .vmem S1x1024 .f32) (h5 : a5.IsWhole) (a6 : Memref sig .tc .vmem S1x1024 .f32) (h6 : a6.IsWhole) (a7 : Memref sig .tc .vmem S2048x1024 .f32) (h7 : a7.IsWhole) (a8 : Memref sig .tc .vmem S2048x1024 .f32) (h8 : a8.IsWhole) (hc0 : ¬cond0_0 i) (hc1 : ¬cond0_1 i)
    (x0 : Vec F S2048x256 .f32) (x1 : Vec F S1024x256 .i32) (x2 : Vec F S1x1024 .f32) (x3 : Vec F S1x1024 .f32) (xs0 : Vec F S2048x1024 .f32) :
    sout0_B_0 c i a3 h3 a4 h4 a5 h5 a6 h6 a7 h7 a8 h8 hc0 hc1 x0 x1 x2 x3 xs0 = k0_pay2 x0 x1 xs0 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  try sl_unfold_words
  rw [View.canon_unit_zero (S := S2048x1024) zero_offsets]
  simp only [View.readAt_eq_ld, h3.read_unread, h4.read_unread, h8.read_unread, View.ld_unit_zero (S := S2048x256) zero_offsets,
    View.ld_unit_zero (S := S1024x256) zero_offsets, View.ld_unit_zero (S := S2048x1024) zero_offsets]

/-- The last column block: the accumulator ends at one accumulation step from what it held … -/
theorem acc_last (c : Dev nD) (i : grid0.Coords) (a3 : Memref sig .tc .vmem S2048x256 .f32) (h3 : a3.IsWhole) (a4 : Memref sig .tc .vmem S1024x256 .i32) (h4 : a4.IsWhole) (a5 : Memref sig .tc .vmem S1x1024 .f32) (h5 : a5.IsWhole) (a6 : Memref sig .tc .vmem S1x1024 .f32) (h6 : a6.IsWhole) (a7 : Memref sig .tc .vmem S2048x1024 .f32) (h7 : a7.IsWhole) (a8 : Memref sig .tc .vmem S2048x1024 .f32) (h8 : a8.IsWhole) (hc0 : ¬cond0_0 i) (hc1 : cond0_1 i)
    (x0 : Vec F S2048x256 .f32) (x1 : Vec F S1024x256 .i32) (x2 : Vec F S1x1024 .f32) (x3 : Vec F S1x1024 .f32) (xs0 : Vec F S2048x1024 .f32) :
    sout0_C_0 c i a3 h3 a4 h4 a5 h5 a6 h6 a7 h7 a8 h8 hc0 hc1 x0 x1 x2 x3 xs0 = k0_pay2 x0 x1 xs0 := by
  unfold sout0_C_0
  rw [View.read_writes_eq_canon _ _ _ (scover0_C_0 c i a3 h3 a4 h4 a5 h5 a6 h6 a7 h7 a8 h8 hc0 hc1 x0 x1 x2 x3 xs0)]
  unfold kernelRun0_C
  dsimp only
  try sl_unfold_words
  rw [View.canon_unit_zero (S := S2048x1024) zero_offsets]
  simp only [View.readAt_eq_ld, h3.read_unread, h4.read_unread, h8.read_unread, View.ld_unit_zero (S := S2048x256) zero_offsets,
    View.ld_unit_zero (S := S1024x256) zero_offsets, View.ld_unit_zero (S := S2048x1024) zero_offsets]

/-- … and the output block at the scaled and shifted value of that accumulator. -/
theorem out_last (c : Dev nD) (i : grid0.Coords) (a3 : Memref sig .tc .vmem S2048x256 .f32) (h3 : a3.IsWhole) (a4 : Memref sig .tc .vmem S1024x256 .i32) (h4 : a4.IsWhole) (a5 : Memref sig .tc .vmem S1x1024 .f32) (h5 : a5.IsWhole) (a6 : Memref sig .tc .vmem S1x1024 .f32) (h6 : a6.IsWhole) (a7 : Memref sig .tc .vmem S2048x1024 .f32) (h7 : a7.IsWhole) (a8 : Memref sig .tc .vmem S2048x1024 .f32) (h8 : a8.IsWhole) (hc0 : ¬cond0_0 i) (hc1 : cond0_1 i)
    (x0 : Vec F S2048x256 .f32) (x1 : Vec F S1024x256 .i32) (x2 : Vec F S1x1024 .f32) (x3 : Vec F S1x1024 .f32) (xs0 : Vec F S2048x1024 .f32) :
    out0_C_4 c i a3 h3 a4 h4 a5 h5 a6 h6 a7 h7 a8 h8 hc0 hc1 x0 x1 x2 x3 xs0 = k0_pay3 (k0_pay2 x0 x1 xs0) x2 x3 := by
  unfold out0_C_4
  rw [View.read_writes_eq_canon _ _ _ (cover0_C_4 c i a3 h3 a4 h4 a5 h5 a6 h6 a7 h7 a8 h8 hc0 hc1 x0 x1 x2 x3 xs0)]
  unfold kernelRun0_C
  dsimp only
  try sl_unfold_words
  rw [View.canon_unit_zero (S := S2048x1024) zero_offsets, View.readCov_unit_zero (S := S2048x1024) _ zero_offsets]
  simp only [View.readAt_eq_ld, h3.read_unread, h4.read_unread, h5.read_unread, h6.read_unread, h8.read_unread,
    View.ld_unit_zero (S := S2048x256) zero_offsets, View.ld_unit_zero (S := S1024x256) zero_offsets,
    View.ld_unit_zero (S := S2048x1024) zero_offsets, View.ld_unit_zero (S := S1x1024) zero_offsets]

end Cert.KernelIdeal.Pieces

end
-- ==== Proof.Steps.lean ====
/-
  The accumulator and the output block from one grid point to the next, in terms of the body's stored values.

  Write acc(n) for what the accumulator holds after point n, and x(n), w(n), s(n), b(n) for the blocks the point reads.
  Then, with k = n mod 16 the point's contraction block,

      acc(n) = step(x(n), w(n), zero)        if k = 0,
      acc(n) = step(x(n), w(n), acc(n − 1))  otherwise,

  and at k = 15 the output block is finish(acc(n), s(n), b(n)).  These hold for every float instance.
-/
import proofs.«104973_j74783970558154_2_alg».proof.Proof.Pieces

noncomputable section

open Idealize.ShloMosaic Idealize.ShloMosaic.TcCoe Idealize.SL.Sem

namespace Cert.KernelIdeal.Steps

open Cert.KernelIdeal Cert.KernelIdeal.Gen Cert.KernelIdeal.Pieces

variable {F : FTy → Type} [FloatOps F]
variable (m : (ℓ : Loc nD τ sig) → Buf (Elt F) ℓ)

/-- At a first contraction block the accumulator restarts from zero. -/
theorem acc_at_first (c : Dev nD) (t : Fin cfg0.N) (h0 : t.val % 16 = 0) (h1 : ¬t.val % 16 = 15) :
    (outsAt0 m c t.val t.isLt).2 = k0_pay2 (iblk m c 0 t) (iblk m c 1 t) (k0_pay1 (F := F)) := by
  rw [outsAt0_A m c t h0 h1]
  dsimp only
  exact acc_first c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) ((hcond0_0 t).mpr h0) (fun h => h1 ((hcond0_1 t).mp h)) (iblk m c 0 t) (iblk m c 1 t) (iblk m c 2 t) (iblk m c 3 t)

/-- At a middle contraction block the accumulator advances from what the point before left. -/
theorem acc_at_middle (c : Dev nD) (t : Fin cfg0.N) (h0 : ¬t.val % 16 = 0) (h1 : ¬t.val % 16 = 15) :
    (outsAt0 m c t.val t.isLt).2
      = k0_pay2 (iblk m c 0 t) (iblk m c 1 t) (outsAt0 m c (t.val - 1) (Nat.lt_of_le_of_lt (Nat.sub_le _ _) t.isLt)).2 := by
  rw [outsAt0_B m c t h0 h1]
  dsimp only
  exact acc_middle c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) (fun h => h0 ((hcond0_0 t).mp h)) (fun h => h1 ((hcond0_1 t).mp h)) (iblk m c 0 t) (iblk m c 1 t) (iblk m c 2 t) (iblk m c 3 t)
    (outsAt0 m c (t.val - 1) (Nat.lt_of_le_of_lt (Nat.sub_le _ _) t.isLt)).2

/-- At a last contraction block the accumulator advances the same way … -/
theorem acc_at_last (c : Dev nD) (t : Fin cfg0.N) (h0 : ¬t.val % 16 = 0) (h1 : t.val % 16 = 15) :
    (outsAt0 m c t.val t.isLt).2
      = k0_pay2 (iblk m c 0 t) (iblk m c 1 t) (outsAt0 m c (t.val - 1) (Nat.lt_of_le_of_lt (Nat.sub_le _ _) t.isLt)).2 := by
  rw [outsAt0_C m c t h0 h1]
  dsimp only
  exact acc_last c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) (fun h => h0 ((hcond0_0 t).mp h)) ((hcond0_1 t).mpr h1) (iblk m c 0 t) (iblk m c 1 t) (iblk m c 2 t) (iblk m c 3 t)
    (outsAt0 m c (t.val - 1) (Nat.lt_of_le_of_lt (Nat.sub_le _ _) t.isLt)).2

/-- … and the output block is the finished value of that accumulator. -/
theorem out_at_last (c : Dev nD) (t : Fin cfg0.N) (h0 : ¬t.val % 16 = 0) (h1 : t.val % 16 = 15) :
    (outsAt0 m c t.val t.isLt).1
      = k0_pay3 (k0_pay2 (iblk m c 0 t) (iblk m c 1 t) (outsAt0 m c (t.val - 1) (Nat.lt_of_le_of_lt (Nat.sub_le _ _) t.isLt)).2)
          (iblk m c 2 t) (iblk m c 3 t) := by
  rw [outsAt0_C m c t h0 h1]
  dsimp only
  exact out_last c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) (fun h => h0 ((hcond0_0 t).mp h)) ((hcond0_1 t).mpr h1) (iblk m c 0 t) (iblk m c 1 t) (iblk m c 2 t) (iblk m c 3 t)
    (outsAt0 m c (t.val - 1) (Nat.lt_of_le_of_lt (Nat.sub_le _ _) t.isLt)).2

end Cert.KernelIdeal.Steps

end
-- ==== Proof.Spec.lean ====
/-
  The function both programs compute, as one formula over the extended reals.

  With x : [4, 2048, 4096], an integer matrix q : [4096, 4096], s and b : [4096], the entry (β, t, o) of the result is

      (∑ p, x[β, t, p] · q[o, p]) · s[o] + b[o].

  The kernel accumulates the inner sum over sixteen column blocks of 256 and scales once at the end; the reference
  scales every weight first, ∑ p, x[β, t, p] · (q[o, p] · s[o]) + b[o].  The two agree when every factor is a real
  number, because a real factor moves across a finite sum of reals.  An integer read as a float is always real, so
  only x and s have to be finite.
-/
import Idealize.ShloMosaic.PureOps.Ideal
import Idealize.ShloMosaic.Lib.ValueIdx

noncomputable section

namespace Cert.QLinear

open Idealize.ShloMosaic Idealize.ShloMosaic.ValueIdx
open scoped BigOperators

/-! ## Sums of reals inside the extended reals -/

/-- The inclusion of the reals in the extended reals commutes with finite sums. -/
theorem coe_sum {ι : Type} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A real factor `s` moves across a finite sum of products of reals: ∑ a·(q·s) = (∑ a·q)·s.  On the extended reals
    this needs every `a p` and `s` to be real (with an infinite entry the two sides can differ, or one be undefined as
    ∞ − ∞ while the other is not). -/
theorem sum_mul_scale {n : ℕ} (a : Fin n → EReal) (q : Fin n → ℝ) (s : EReal)
    (ha : ∀ p, ∃ r : ℝ, a p = r) (hs : ∃ r : ℝ, s = r) :
    ∑ p, a p * ((q p : EReal) * s) = (∑ p, a p * (q p : EReal)) * s := by
  choose a' ha' using ha
  obtain ⟨s', rfl⟩ := hs
  simp only [ha', ← EReal.coe_mul]
  rw [← coe_sum, ← coe_sum, ← EReal.coe_mul, Finset.sum_mul]
  congr 1
  exact Finset.sum_congr rfl fun p _ => by ring

/-- A sum over the first `n + m` naturals is the sum over the first `n` plus the next `m` terms. -/
theorem sum_range_block (f : ℕ → EReal) (n m : ℕ) :
    ∑ p ∈ Finset.range (n + m), f p = ∑ p ∈ Finset.range n, f p + ∑ l : Fin m, f (n + l.val) := by
  rw [Finset.sum_range_add]
  congr 1
  exact Finset.sum_range fun x => f (n + x)

/-! ## The inner product, column by column -/

/-- The integer word `w` as the real number it denotes. -/
abbrev intVal (w : BitVec 32) : EReal := ((w.toInt : ℝ) : EReal)

/-- Column `p`'s term of the inner product of row `R` of the flattened activations `X : [8192, 4096]` with row `O` of
    the integer matrix.  Past the 4096 columns the term is zero, so sums over initial segments of the naturals make sense. -/
def term (X : (⟨2, ![8192, 4096]⟩ : Shape).Idx → EReal) (q : (⟨2, ![4096, 4096]⟩ : Shape).Idx → BitVec 32)
    (R : Fin 8192) (O : Fin 4096) (p : ℕ) : EReal :=
  if h : p < 4096 then X (ix2 R ⟨p, h⟩) * intVal (q (ix2 O ⟨p, h⟩)) else 0

/-- The inner product over the first `n` columns: what the accumulator holds after the column blocks before `n`. -/
def partialDot (X : (⟨2, ![8192, 4096]⟩ : Shape).Idx → EReal) (q : (⟨2, ![4096, 4096]⟩ : Shape).Idx → BitVec 32)
    (R : Fin 8192) (O : Fin 4096) (n : ℕ) : EReal :=
  ∑ p ∈ Finset.range n, term X q R O p

theorem partialDot_zero (X : (⟨2, ![8192, 4096]⟩ : Shape).Idx → EReal) (q : (⟨2, ![4096, 4096]⟩ : Shape).Idx → BitVec 32)
    (R : Fin 8192) (O : Fin 4096) : partialDot X q R O 0 = 0 := by
  unfold partialDot; simp

/-- One more block of 256 columns, starting at column `256 · k` with `k < 16`. -/
theorem partialDot_block (X : (⟨2, ![8192, 4096]⟩ : Shape).Idx → EReal) (q : (⟨2, ![4096, 4096]⟩ : Shape).Idx → BitVec 32)
    (R : Fin 8192) (O : Fin 4096) (k : ℕ) (hk : k < 16) :
    partialDot X q R O (256 * k + 256)
      = partialDot X q R O (256 * k)
        + ∑ l : Fin 256, X (ix2 R ⟨256 * k + l.val, by have := l.isLt; omega⟩)
            * intVal (q (ix2 O ⟨256 * k + l.val, by have := l.isLt; omega⟩)) := by
  unfold partialDot
  rw [sum_range_block]
  congr 1
  refine Finset.sum_congr rfl fun l _ => ?_
  unfold term
  rw [dif_pos (by have := l.isLt; omega)]

/-- All 4096 columns: the whole inner product. -/
theorem partialDot_all (X : (⟨2, ![8192, 4096]⟩ : Shape).Idx → EReal) (q : (⟨2, ![4096, 4096]⟩ : Shape).Idx → BitVec 32)
    (R : Fin 8192) (O : Fin 4096) :
    partialDot X q R O 4096 = ∑ p : Fin 4096, X (ix2 R p) * intVal (q (ix2 O p)) := by
  unfold partialDot
  rw [Finset.sum_range]
  refine Finset.sum_congr rfl fun p _ => ?_
  unfold term
  rw [dif_pos p.isLt]

/-! ## The result -/

/-- The flattened result `[8192, 4096]` of the kernel's region, from the flattened activations, the integer matrix and
    the scale and bias rows `[1, 4096]`: entry (R, O) is (∑ p, X[R, p] · q[O, p]) · s[0, O] + b[0, O]. -/
def flat (X : (⟨2, ![8192, 4096]⟩ : Shape).Idx → EReal) (q : (⟨2, ![4096, 4096]⟩ : Shape).Idx → BitVec 32)
    (s b : (⟨2, ![1, 4096]⟩ : Shape).Idx → EReal) : (⟨2, ![8192, 4096]⟩ : Shape).Idx → EReal :=
  fun i => (∑ p : Fin 4096, X (ix2 (i 0) p) * intVal (q (ix2 (i 1) p))) * s (ix2 (0 : Fin 1) (i 1))
    + b (ix2 (0 : Fin 1) (i 1))

/-- The result `[4, 2048, 4096]` from the argument arrays: entry (β, t, o) is (∑ p, x[β, t, p] · q[o, p]) · s[o] + b[o]. -/
def result (x : (⟨3, ![4, 2048, 4096]⟩ : Shape).Idx → EReal) (q : (⟨2, ![4096, 4096]⟩ : Shape).Idx → BitVec 32)
    (s b : (⟨1, ![4096]⟩ : Shape).Idx → EReal) : (⟨3, ![4, 2048, 4096]⟩ : Shape).Idx → EReal :=
  fun i => (∑ p : Fin 4096, x (ix3 (i 0) (i 1) p) * intVal (q (ix2 (i 2) p))) * s (ix1 (i 2)) + b (ix1 (i 2))

theorem flat_apply (X : (⟨2, ![8192, 4096]⟩ : Shape).Idx → EReal) (q : (⟨2, ![4096, 4096]⟩ : Shape).Idx → BitVec 32)
    (s b : (⟨2, ![1, 4096]⟩ : Shape).Idx → EReal) (R : Fin 8192) (O : Fin 4096) :
    flat X q s b (ix2 R O)
      = (∑ p : Fin 4096, X (ix2 R p) * intVal (q (ix2 O p))) * s (ix2 (0 : Fin 1) O) + b (ix2 (0 : Fin 1) O) := rfl

theorem result_apply (x : (⟨3, ![4, 2048, 4096]⟩ : Shape).Idx → EReal) (q : (⟨2, ![4096, 4096]⟩ : Shape).Idx → BitVec 32)
    (s b : (⟨1, ![4096]⟩ : Shape).Idx → EReal) (β : Fin 4) (u : Fin 2048) (o : Fin 4096) :
    result x q s b (ix3 β u o)
      = (∑ p : Fin 4096, x (ix3 β u p) * intVal (q (ix2 o p))) * s (ix1 o) + b (ix1 o) := rfl

/-- The same entry computed the reference's way, every weight scaled before the inner product:
    (∑ p, x[β, t, p] · (q[o, p] · s[o])) + b[o]. -/
def scaledFirst (x : (⟨3, ![4, 2048, 4096]⟩ : Shape).Idx → EReal) (q : (⟨2, ![4096, 4096]⟩ : Shape).Idx → BitVec 32)
    (s b : (⟨1, ![4096]⟩ : Shape).Idx → EReal) : (⟨3, ![4, 2048, 4096]⟩ : Shape).Idx → EReal :=
  fun i => (∑ p : Fin 4096, x (ix3 (i 0) (i 1) p) * (intVal (q (ix2 (i 2) p)) * s (ix1 (i 2)))) + b (ix1 (i 2))

/-- The two arrangements agree when the activations and the scales are real numbers. -/
theorem scaledFirst_eq_result (x : (⟨3, ![4, 2048, 4096]⟩ : Shape).Idx → EReal) (q : (⟨2, ![4096, 4096]⟩ : Shape).Idx → BitVec 32)
    (s b : (⟨1, ![4096]⟩ : Shape).Idx → EReal) (hx : ∀ i, ∃ r : ℝ, x i = r) (hs : ∀ j, ∃ r : ℝ, s j = r) :
    scaledFirst x q s b = result x q s b := by
  funext i
  unfold scaledFirst result
  refine congrArg (· + b (ix1 (i 2))) ?_
  exact sum_mul_scale (fun p => x (ix3 (i 0) (i 1) p)) (fun p => ((q (ix2 (i 2) p)).toInt : ℝ)) (s (ix1 (i 2)))
    (fun p => hx _) (hs _)

end Cert.QLinear

end
-- ==== Proof.Payload.lean ====
/-
  The body's three stored values, read at one entry (r, o) of the 2048 × 1024 block, over the extended reals.

  * the reset stores 0;
  * the accumulation stores acc[r, o] + ∑ l < 256, x[r, l] · w[o, l], where x is the 2048 × 256 activation block and
    w the 1024 × 256 integer block read as reals (the change of float format is the identity, and the block product
    into a zero accumulator is the plain sum over the contracted column);
  * the last step stores acc[r, o] · s[0, o] + b[0, o], the scale and bias rows broadcast over the 2048 rows.
-/
import proofs.«104973_j74783970558154_2_alg».proof.Proof.Gen.KernelIdeal.Skeleton
import proofs.«104973_j74783970558154_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.QLinear
open scoped BigOperators

/-- The block product's dimension numbers: both operands are contracted along their second axis. -/
abbrev dims := dot_S2048x256_S1024x256_S2048x1024_1_1_0_0_n_n

theorem lhs_row (i : S2048x1024.Idx) (k : dims.contr.Idx) : (dims.lhsIdx i k 0).val = (i 0).val := by
  unfold DotDims.lhsIdx
  rw [dif_neg (show ¬(0 : Fin S2048x256.rank) ∈ dims.lhsBatch by decide),
    dif_pos (show (0 : Fin S2048x256.rank) ∈ dims.lhsNonContracting by decide)]
  rfl
theorem lhs_col (i : S2048x1024.Idx) (k : dims.contr.Idx) : (dims.lhsIdx i k 1).val = (k ⟨0, by decide⟩).val :=
  dims.lhsIdx_val_of_single rfl i k
theorem rhs_row (i : S2048x1024.Idx) (k : dims.contr.Idx) : (dims.rhsIdx i k 0).val = (i 1).val := by
  unfold DotDims.rhsIdx
  rw [dif_neg (show ¬(0 : Fin S1024x256.rank) ∈ dims.rhsBatch by decide),
    dif_pos (show (0 : Fin S1024x256.rank) ∈ dims.rhsNonContracting by decide)]
  rfl
theorem rhs_col (i : S2048x1024.Idx) (k : dims.contr.Idx) : (dims.rhsIdx i k 1).val = (k ⟨0, by decide⟩).val :=
  dims.rhsIdx_val_of_single rfl i k

/-- The reset's value is zero everywhere. -/
theorem reset_apply (j : S2048x1024.Idx) : k0_pay1 (F := Ideal) j = 0 := by
  unfold k0_pay1
  rw [shapeCast_self]
  exact Ideal.ofBits_zero_f32

/-- The accumulation step at (r, o): the old accumulator plus the inner product over the block's 256 columns. -/
theorem acc_apply (x : Vec Ideal S2048x256 .f32) (w : Vec Ideal S1024x256 .i32) (acc : Vec Ideal S2048x1024 .f32)
    (r : Fin 2048) (o : Fin 1024) :
    k0_pay2 (F := Ideal) x w acc (ix2 r o) = acc (ix2 r o) + ∑ l : Fin 256, x (ix2 r l) * intVal (w (ix2 o l)) := by
  unfold k0_pay2
  rw [shapeCast_self, shapeCast_self]
  refine (addf_apply _ _ (ix2 r o)).trans ?_
  refine congrArg (acc (ix2 r o) + ·) ?_
  refine (Ideal.matmul_constant_zero_apply dims none _ _ (ix2 r o)).trans ?_
  rw [← Equiv.sum_comp (contrEquiv1 dims 256 rfl rfl).symm]
  refine Finset.sum_congr rfl fun l _ => ?_
  have hk := contrEquiv1_symm_val dims 256 rfl rfl l
  have el : dims.lhsIdx (ix2 r o) ((contrEquiv1 dims 256 rfl rfl).symm l) = ix2 r l := funext fun a => Fin.ext (by
    match a with
    | ⟨0, _⟩ => exact lhs_row _ _
    | ⟨1, _⟩ => exact (lhs_col _ _).trans hk)
  have er : dims.rhsIdx (ix2 r o) ((contrEquiv1 dims 256 rfl rfl).symm l) = ix2 o l := funext fun a => Fin.ext (by
    match a with
    | ⟨0, _⟩ => exact rhs_row _ _
    | ⟨1, _⟩ => exact (rhs_col _ _).trans hk)
  rw [el, er]
  rfl

/-- The last step at (r, o): the accumulator times the scale row's entry o, plus the bias row's entry o. -/
theorem out_apply (acc : Vec Ideal S2048x1024 .f32) (s b : Vec Ideal S1x1024 .f32) (r : Fin 2048) (o : Fin 1024) :
    k0_pay3 (F := Ideal) acc s b (ix2 r o) = acc (ix2 r o) * s (ix2 (0 : Fin 1) o) + b (ix2 (0 : Fin 1) o) := by
  unfold k0_pay3
  rw [shapeCast_self, shapeCast_self, shapeCast_self, shapeCast_self]
  refine (addf_apply _ _ (ix2 r o)).trans ?_
  refine congrArg₂ (· + ·) ?_ ?_
  · refine (mulf_apply _ _ (ix2 r o)).trans ?_
    refine congrArg (acc (ix2 r o) * ·) ?_
    exact broadcastTo_1b_ab_apply s broadcasts_S1x1024_S2048x1024 r o
  · exact broadcastTo_1b_ab_apply b broadcasts_S1x1024_S2048x1024 r o

end Cert.KernelIdeal.Pay

end
-- ==== Proof.Blocks.lean ====
/-
  Where the blocks sit.  The grid has 4 × 4 × 16 points; point number n stands for the row block n / 64 of the 8192
  flattened rows, the column block (n / 16) mod 4 of the 4096 output channels, and the contraction block n mod 16 of the
  4096 input channels.  At that point

    * the activation block is rows 2048·(n / 64) + r and columns 256·(n mod 16) + l of the flattened activations,
    * the weight block is rows 1024·((n / 16) mod 4) + o and columns 256·(n mod 16) + l of the integer matrix,
    * the scale and bias blocks are columns 1024·((n / 16) mod 4) + o of the two 1 × 4096 rows,
    * the output block is rows 2048·(n / 64) + r and columns 1024·((n / 16) mod 4) + o of the flattened result.

  Before the region the program only re-lays its arguments: the activations [4, 2048, 4096] become [8192, 4096] (row
  2048·β + u is (β, u)) and the scale and bias vectors become 1 × 4096 rows.
-/
import proofs.«104973_j74783970558154_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The five index maps in closed form, checked at every one of the 256 grid points. -/
theorem index_maps : ∀ t : Fin cfg0.N,
    win0_0.index t (0 : Fin 2) = t.val / 64 ∧ win0_0.index t (1 : Fin 2) = t.val % 16
    ∧ win0_1.index t (0 : Fin 2) = t.val / 16 % 4 ∧ win0_1.index t (1 : Fin 2) = t.val % 16
    ∧ win0_2.index t (0 : Fin 2) = 0 ∧ win0_2.index t (1 : Fin 2) = t.val / 16 % 4
    ∧ win0_3.index t (0 : Fin 2) = 0 ∧ win0_3.index t (1 : Fin 2) = t.val / 16 % 4
    ∧ win0_4.index t (0 : Fin 2) = t.val / 64 ∧ win0_4.index t (1 : Fin 2) = t.val / 16 % 4 :=
  (by decide +kernel : ∀ t : Fin grid0.N, _)

/-- The activation block at point `t`, entry (r, l), is entry (R, p) of the flattened activations. -/
theorem x_block (c : Dev nD) (t : Fin cfg0.N) (r : Fin 2048) (l : Fin 256) (R : Fin 8192) (p : Fin 4096)
    (hR : R.val = 2048 * (t.val / 64) + r.val) (hp : p.val = 256 * (t.val % 16) + l.val) :
    (iblk m c 0 t : Vec F S2048x256 .f32) (ix2 r l) = V m c main_v0 (ix2 R p) := by
  obtain ⟨e0, e1, -⟩ := index_maps t
  show V m c main_v0 (((cfg0.win 0).blk t).view.emb (ix2 r l)) = V m c main_v0 (ix2 R p)
  refine congrArg (V m c main_v0) (funext fun a => Fin.ext ?_)
  match a with
  | ⟨0, _⟩ => show win0_0.index t (0 : Fin 2) * 2048 + 1 * r.val = R.val; omega
  | ⟨1, _⟩ => show win0_0.index t (1 : Fin 2) * 256 + 1 * l.val = p.val; omega

/-- The weight block at point `t`, entry (o, l), is entry (O, p) of the integer matrix. -/
theorem w_block (c : Dev nD) (t : Fin cfg0.N) (o : Fin 1024) (l : Fin 256) (O : Fin 4096) (p : Fin 4096)
    (hO : O.val = 1024 * (t.val / 16 % 4) + o.val) (hp : p.val = 256 * (t.val % 16) + l.val) :
    (iblk m c 1 t : Vec F S1024x256 .i32) (ix2 o l) = V m c main_arg1 (ix2 O p) := by
  obtain ⟨-, -, e0, e1, -⟩ := index_maps t
  show V m c main_arg1 (((cfg0.win 1).blk t).view.emb (ix2 o l)) = V m c main_arg1 (ix2 O p)
  refine congrArg (V m c main_arg1) (funext fun a => Fin.ext ?_)
  match a with
  | ⟨0, _⟩ => show win0_1.index t (0 : Fin 2) * 1024 + 1 * o.val = O.val; omega
  | ⟨1, _⟩ => show win0_1.index t (1 : Fin 2) * 256 + 1 * l.val = p.val; omega

/-- The scale block at point `t`, entry (0, o), is entry (0, O) of the scale row. -/
theorem s_block (c : Dev nD) (t : Fin cfg0.N) (o : Fin 1024) (O : Fin 4096)
    (hO : O.val = 1024 * (t.val / 16 % 4) + o.val) :
    (iblk m c 2 t : Vec F S1x1024 .f32) (ix2 (0 : Fin 1) o) = V m c main_v1 (ix2 (0 : Fin 1) O) := by
  obtain ⟨-, -, -, -, e0, e1, -⟩ := index_maps t
  show V m c main_v1 (((cfg0.win 2).blk t).view.emb (ix2 (0 : Fin 1) o)) = V m c main_v1 (ix2 (0 : Fin 1) O)
  refine congrArg (V m c main_v1) (funext fun a => Fin.ext ?_)
  match a with
  | ⟨0, _⟩ => show win0_2.index t (0 : Fin 2) * 1 + 1 * 0 = 0; omega
  | ⟨1, _⟩ => show win0_2.index t (1 : Fin 2) * 1024 + 1 * o.val = O.val; omega

/-- The bias block at point `t`, entry (0, o), is entry (0, O) of the bias row. -/
theorem b_block (c : Dev nD) (t : Fin cfg0.N) (o : Fin 1024) (O : Fin 4096)
    (hO : O.val = 1024 * (t.val / 16 % 4) + o.val) :
    (iblk m c 3 t : Vec F S1x1024 .f32) (ix2 (0 : Fin 1) o) = V m c main_v2 (ix2 (0 : Fin 1) O) := by
  obtain ⟨-, -, -, -, -, -, e0, e1, -⟩ := index_maps t
  show V m c main_v2 (((cfg0.win 3).blk t).view.emb (ix2 (0 : Fin 1) o)) = V m c main_v2 (ix2 (0 : Fin 1) O)
  refine congrArg (V m c main_v2) (funext fun a => Fin.ext ?_)
  match a with
  | ⟨0, _⟩ => show win0_3.index t (0 : Fin 2) * 1 + 1 * 0 = 0; omega
  | ⟨1, _⟩ => show win0_3.index t (1 : Fin 2) * 1024 + 1 * o.val = O.val; omega

/-! ## The arrays the region finds -/

/-- The flattened activations are the argument re-laid as 8192 rows. -/
theorem flat_x (c : Dev nD) :
    V m c main_v0 = shapeCast S8192x4096 (m ((c : Thread nD τ).loc main_arg0)) shapeCasts_S4x2048x4096_S8192x4096 := by
  show StableHlo.after hostOps0 (fun b => m (c, b)) (Proc.devRef .tc main_v0) = _
  after_results
  rfl

/-- The scale row is the scale vector re-laid as one row. -/
theorem row_s (c : Dev nD) :
    V m c main_v1 = shapeCast S1x4096 (m ((c : Thread nD τ).loc main_arg2)) shapeCasts_S4096_S1x4096 := by
  show StableHlo.after hostOps0 (fun b => m (c, b)) (Proc.devRef .tc main_v1) = _
  after_results
  rfl

/-- The bias row is the bias vector re-laid as one row. -/
theorem row_b (c : Dev nD) :
    V m c main_v2 = shapeCast S1x4096 (m ((c : Thread nD τ).loc main_arg3)) shapeCasts_S4096_S1x4096 := by
  show StableHlo.after hostOps0 (fun b => m (c, b)) (Proc.devRef .tc main_v2) = _
  after_results
  rfl

/-- Row 2048·β + u of the flattened activations is row (β, u) of the argument. -/
theorem flat_x_apply (c : Dev nD) (R : Fin 8192) (p : Fin 4096) (β : Fin 4) (u : Fin 2048)
    (h : R.val = 2048 * β.val + u.val) :
    V m c main_v0 (ix2 R p) = m ((c : Thread nD τ).loc main_arg0) (ix3 β u p) := by
  rw [flat_x]
  refine shapeCast_apply _ _ (ix2 R p) (ix3 β u p) ?_
  rw [Shape.rowMajor_val_three, Shape.rowMajor_val_two]
  show (β.val * 2048 + u.val) * 4096 + p.val = R.val * 4096 + p.val
  omega

/-- Entry (0, O) of the scale row is entry O of the scale vector. -/
theorem row_s_apply (c : Dev nD) (O : Fin 4096) :
    V m c main_v1 (ix2 (0 : Fin 1) O) = m ((c : Thread nD τ).loc main_arg2) (ix1 O) := by
  rw [row_s]
  refine shapeCast_apply _ _ (ix2 (0 : Fin 1) O) (ix1 O) ?_
  rw [Shape.rowMajor_val_one, Shape.rowMajor_val_two]
  show O.val = 0 * 4096 + O.val
  omega

/-- Entry (0, O) of the bias row is entry O of the bias vector. -/
theorem row_b_apply (c : Dev nD) (O : Fin 4096) :
    V m c main_v2 (ix2 (0 : Fin 1) O) = m ((c : Thread nD τ).loc main_arg3) (ix1 O) := by
  rw [row_b]
  refine shapeCast_apply _ _ (ix2 (0 : Fin 1) O) (ix1 O) ?_
  rw [Shape.rowMajor_val_one, Shape.rowMajor_val_two]
  show O.val = 0 * 4096 + O.val
  omega

end Cert.KernelIdeal.Blocks

end
-- ==== Proof.Accum.lean ====
/-
  The accumulator is the inner product over the columns seen so far.

  Fix a grid point n, with row block n / 64, output-channel block (n / 16) mod 4 and contraction block k = n mod 16.
  After point n, entry (r, o) of the accumulator is

      ∑ p < 256·(k + 1),  X[R, p] · q[O, p]        with R = 2048·(n / 64) + r,  O = 1024·((n / 16) mod 4) + o,

  X the flattened activations and q the integer matrix.  This is an induction on n: at k = 0 the sum restarts from the
  zero block, and otherwise point n − 1 has the same R and O and one contraction block less.  At k = 15 the sum runs
  over all 4096 columns, and the output block holds that inner product times the scale entry plus the bias entry.
  Only sums of extended reals are re-associated here, which needs no finiteness.
-/
import proofs.«104973_j74783970558154_2_alg».proof.Proof.Steps
import proofs.«104973_j74783970558154_2_alg».proof.Proof.Payload
import proofs.«104973_j74783970558154_2_alg».proof.Proof.Blocks
import proofs.«104973_j74783970558154_2_alg».proof.Proof.Spec

noncomputable section

open Idealize.ShloMosaic Idealize.ShloMosaic.TcCoe Idealize.SL.Sem Idealize.ShloMosaic.ValueIdx
open scoped BigOperators

namespace Cert.KernelIdeal.Accum

open Cert.KernelIdeal Cert.KernelIdeal.Gen Cert.KernelIdeal.Steps Cert.KernelIdeal.Pay Cert.KernelIdeal.Blocks Cert.QLinear

variable (m : (ℓ : Loc nD τ sig) → Buf (Elt Ideal) ℓ)

/-- One accumulation step at point `t`: if the accumulator held the inner product over the columns before the point's
    contraction block, it now holds the inner product over the columns up to the end of that block. -/
theorem step_value (c : Dev nD) (t : Fin cfg0.N) (prev : Vec Ideal S2048x1024 .f32) (r : Fin 2048) (o : Fin 1024)
    (R : Fin 8192) (O : Fin 4096) (hR : R.val = 2048 * (t.val / 64) + r.val) (hO : O.val = 1024 * (t.val / 16 % 4) + o.val)
    (hprev : prev (ix2 r o) = partialDot (V m c main_v0) (V m c main_arg1) R O (256 * (t.val % 16))) :
    k0_pay2 (F := Ideal) (iblk m c 0 t) (iblk m c 1 t) prev (ix2 r o)
      = partialDot (V m c main_v0) (V m c main_arg1) R O (256 * (t.val % 16) + 256) := by
  refine (acc_apply (iblk m c 0 t) (iblk m c 1 t) prev r o).trans ?_
  rw [partialDot_block _ _ R O (t.val % 16) (Nat.mod_lt _ (by decide)), hprev]
  refine congrArg (partialDot (V m c main_v0) (V m c main_arg1) R O (256 * (t.val % 16)) + ·) ?_
  refine Finset.sum_congr rfl fun l _ => ?_
  exact congrArg₂ (· * ·) (x_block m c t r l R ⟨256 * (t.val % 16) + l.val, by have := l.isLt; omega⟩ hR rfl)
    (congrArg intVal (w_block m c t o l O ⟨256 * (t.val % 16) + l.val, by have := l.isLt; omega⟩ hO rfl))

/-- After point `n` the accumulator holds, entry by entry, the inner product over the first 256·(n mod 16 + 1) columns. -/
theorem acc_value (c : Dev nD) : ∀ (n : ℕ) (h : n < cfg0.N) (r : Fin 2048) (o : Fin 1024) (R : Fin 8192) (O : Fin 4096),
    R.val = 2048 * (n / 64) + r.val → O.val = 1024 * (n / 16 % 4) + o.val →
    (outsAt0 m c n h).2 (ix2 r o) = partialDot (V m c main_v0) (V m c main_arg1) R O (256 * (n % 16) + 256)
  | 0, h, r, o, R, O, hR, hO => by
    refine (congrFun (acc_at_first m c ⟨0, h⟩ rfl (show ¬(0 : ℕ) % 16 = 15 by decide)) (ix2 r o)).trans ?_
    exact step_value m c ⟨0, h⟩ _ r o R O hR hO ((reset_apply _).trans (partialDot_zero _ _ R O).symm)
  | n + 1, h, r, o, R, O, hR, hO => by
    have hN : n + 1 < 256 := lt_of_lt_of_eq h (show cfg0.N = 256 from N_0)
    by_cases h0 : (n + 1) % 16 = 0
    · have h1 : ¬(n + 1) % 16 = 15 := by omega
      refine (congrFun (acc_at_first m c ⟨n + 1, h⟩ h0 h1) (ix2 r o)).trans ?_
      refine step_value m c ⟨n + 1, h⟩ _ r o R O hR hO ((reset_apply _).trans ?_)
      show (0 : EReal) = partialDot _ _ R O (256 * ((n + 1) % 16))
      rw [h0]
      exact (partialDot_zero _ _ R O).symm
    · have ih := acc_value c n (Nat.lt_of_succ_lt h) r o R O (by omega) (by omega)
      have hk : 256 * ((n + 1) % 16) = 256 * (n % 16) + 256 := by omega
      by_cases h1 : (n + 1) % 16 = 15
      · refine (congrFun (acc_at_last m c ⟨n + 1, h⟩ h0 h1) (ix2 r o)).trans ?_
        refine step_value m c ⟨n + 1, h⟩ _ r o R O hR hO ?_
        show (outsAt0 m c n _).2 (ix2 r o) = partialDot _ _ R O (256 * ((n + 1) % 16))
        rw [hk]
        exact ih
      · refine (congrFun (acc_at_middle m c ⟨n + 1, h⟩ h0 h1) (ix2 r o)).trans ?_
        refine step_value m c ⟨n + 1, h⟩ _ r o R O hR hO ?_
        show (outsAt0 m c n _).2 (ix2 r o) = partialDot _ _ R O (256 * ((n + 1) % 16))
        rw [hk]
        exact ih

/-- At a last contraction block the output block holds, entry by entry, the flattened result. -/
theorem out_value (c : Dev nD) (t : Fin cfg0.N) (h1 : t.val % 16 = 15) (r : Fin 2048) (o : Fin 1024)
    (R : Fin 8192) (O : Fin 4096) (hR : R.val = 2048 * (t.val / 64) + r.val) (hO : O.val = 1024 * (t.val / 16 % 4) + o.val) :
    (outsAt0 m c t.val t.isLt).1 (ix2 r o)
      = flat (V m c main_v0) (V m c main_arg1) (V m c main_v1) (V m c main_v2) (ix2 R O) := by
  have h0 : ¬t.val % 16 = 0 := by omega
  have hacc := (congrFun (acc_at_last m c t h0 h1) (ix2 r o)).symm.trans (acc_value m c t.val t.isLt r o R O hR hO)
  refine (congrFun (out_at_last m c t h0 h1) (ix2 r o)).trans ?_
  refine (out_apply _ (iblk m c 2 t) (iblk m c 3 t) r o).trans ?_
  rw [hacc, s_block m c t o O hO, b_block m c t o O hO, h1]
  show partialDot _ _ R O 4096 * _ + _ = _
  rw [partialDot_all]
  rfl

end Cert.KernelIdeal.Accum

end
-- ==== Proof.Final.lean ====
/-
  From the blocks to the whole result.

  The output window is written back exactly at the points with n mod 16 = 15, and there its block is rows
  2048·(n / 64) + r, columns 1024·((n / 16) mod 4) + o of the flattened result.  Every entry (R, O) of the 8192 × 4096
  array lies in the block of the point n = ((R / 2048)·4 + O / 1024)·16 + 15, so after the region the array is the
  flattened result everywhere.  The program then re-lays it as [4, 2048, 4096]: entry (β, u, o) is entry
  (2048·β + u, o), which in terms of the arguments is (∑ p, x[β, u, p] · q[o, p]) · s[o] + b[o].
-/
import proofs.«104973_j74783970558154_2_alg».proof.Proof.Accum
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.Final

open Cert.KernelIdeal Cert.KernelIdeal.Gen Cert.KernelIdeal.Blocks Cert.KernelIdeal.Accum Cert.QLinear

variable (m : (ℓ : Loc nD τ sig) → Buf (Elt Ideal) ℓ) (ρ : Dev nD → PrngReg)

/-- The flattened result, of the arrays the region finds. -/
abbrev flatResult (c : Dev nD) : S8192x4096.Idx → EReal :=
  flat (V m c main_v0) (V m c main_arg1) (V m c main_v1) (V m c main_v2)

/-- What a point with n mod 16 = 15 writes back is its block of the flattened result. -/
theorem flushed_eq (c : Dev nD) (t : Fin cfg0.N) (hf : (cfg0.win 4).flush t = true) :
    (dats m 0 c).flushed 4 t = ((cfg0.win 4).blk t).view.read (Elt Ideal) (flatResult m c) := by
  have h15 : t.val % 16 = 15 := (flush0_4 t).mp hf
  have hN : t.val < 256 := lt_of_lt_of_eq t.isLt (show cfg0.N = 256 from N_0)
  obtain ⟨-, -, -, -, -, -, -, -, e0, e1⟩ := index_maps t
  show (cfg0.win 4).cut (grid0.coords t) ((dats m 0 c).after 4 t) = _
  rw [after0_4]
  funext j
  obtain ⟨r, o, rfl⟩ : ∃ (r : Fin 2048) (o : Fin 1024), j = ix2 r o := ⟨j 0, j 1, eq_ix2 j⟩
  have hr := r.isLt
  have ho := o.isLt
  show (outsAt0 m c t.val t.isLt).1 (ix2 r o) = flatResult m c (((cfg0.win 4).blk t).view.emb (ix2 r o))
  have hemb : ((cfg0.win 4).blk t).view.emb (ix2 r o)
      = ix2 (⟨2048 * (t.val / 64) + r.val, by omega⟩ : Fin 8192) (⟨1024 * (t.val / 16 % 4) + o.val, by omega⟩ : Fin 4096) :=
    funext fun a => Fin.ext (by
      match a with
      | ⟨0, _⟩ => show win0_4.index t (0 : Fin 2) * 2048 + 1 * r.val = 2048 * (t.val / 64) + r.val; omega
      | ⟨1, _⟩ => show win0_4.index t (1 : Fin 2) * 1024 + 1 * o.val = 1024 * (t.val / 16 % 4) + o.val; omega)
  rw [hemb]
  exact out_value m c t h15 r o _ _ rfl rfl

/-- Every entry of the flattened array is in the block of some point that writes back. -/
theorem covered (c : Dev nD) (i : ((cfg0.win 4).arr.view.loc (c.tc : Thread nD τ)).2.ty.Idx) :
    ∃ t : Fin cfg0.N, (cfg0.win 4).flush t = true ∧ i ∈ ((cfg0.win 4).blk t).view.set := by
  have h0 : (i 0).val < 8192 := (i 0).isLt
  have h1 : (i 1).val < 4096 := (i 1).isLt
  obtain ⟨n, hn⟩ : ∃ n, n = ((i 0).val / 2048 * 4 + (i 1).val / 1024) * 16 + 15 := ⟨_, rfl⟩
  have hlt : n < cfg0.N := by rw [show cfg0.N = 256 from N_0]; omega
  refine ⟨⟨n, hlt⟩, (flush0_4 _).mpr (by show n % 16 = 15; omega), ?_⟩
  obtain ⟨-, -, -, -, -, -, -, -, e0, e1⟩ := index_maps (⟨n, hlt⟩ : Fin cfg0.N)
  show i ∈ ((View.whole main_v3).slice (win0_4.rect ⟨n, hlt⟩)).set
  rw [View.set_slice_whole, Rect.mem_set_unit]
  intro a
  match a with
  | ⟨0, _⟩ =>
    show win0_4.index ⟨n, hlt⟩ (0 : Fin 2) * 2048 ≤ (i 0).val ∧ (i 0).val < win0_4.index ⟨n, hlt⟩ (0 : Fin 2) * 2048 + 2048
    rw [e0]
    show n / 64 * 2048 ≤ (i 0).val ∧ (i 0).val < n / 64 * 2048 + 2048
    omega
  | ⟨1, _⟩ =>
    show win0_4.index ⟨n, hlt⟩ (1 : Fin 2) * 1024 ≤ (i 1).val ∧ (i 1).val < win0_4.index ⟨n, hlt⟩ (1 : Fin 2) * 1024 + 1024
    rw [e1]
    show n / 16 % 4 * 1024 ≤ (i 1).val ∧ (i 1).val < n / 16 % 4 * 1024 + 1024
    omega

/-- After the region the flattened array is the flattened result. -/
theorem final (c : Dev nD) : (dats m 0 c).arrAt 4 cfg0.N = flatResult m c :=
  (dats m 0 c).arrAt_eq_of_cover 4 (flatResult m c) (flushed_eq m c) (covered c)

/-- The program's result array: the flattened result re-laid as [4, 2048, 4096]. -/
theorem tail_value (c : Dev nD) :
    Pipeline.afterTail₀ cfgs (dats m) 0 (V0 m) [hostOps1] c main_v4
      = shapeCast S4x2048x4096 (flatResult m c) shapeCasts_S8192x4096_S4x2048x4096 := by
  unfold Pipeline.afterTail₀
  show StableHlo.after hostOps1 _ (Proc.devRef .tc main_v4) = _
  after_results
  have e := (Pipeline.withArrays_arr spec0 launch0.win.arr_inj c (V0 m c) (fun w => (dats m 0 c).arrAt w (cfgs 0).N) 4).trans
    (final m c)
  refine Eq.trans ?_ (congrArg (fun z => shapeCast S4x2048x4096 z shapeCasts_S8192x4096_S4x2048x4096) e)
  rfl

/-- In terms of the arguments, the re-laid result is `result`. -/
theorem relaid_eq (c : Dev nD) :
    shapeCast S4x2048x4096 (flatResult m c) shapeCasts_S8192x4096_S4x2048x4096
      = result (m ((c.tc : Thread nD τ).loc main_arg0)) (m ((c.tc : Thread nD τ).loc main_arg1))
          (m ((c.tc : Thread nD τ).loc main_arg2)) (m ((c.tc : Thread nD τ).loc main_arg3)) := by
  funext j
  obtain ⟨β, u, o, rfl⟩ : ∃ (β : Fin 4) (u : Fin 2048) (o : Fin 4096), j = ix3 β u o := ⟨j 0, j 1, j 2, eq_ix3 j⟩
  have hβ := β.isLt
  have hu := u.isLt
  refine (shapeCast_apply _ _ (ix3 β u o) (ix2 (⟨2048 * β.val + u.val, by omega⟩ : Fin 8192) o) ?_).trans ?_
  · rw [Shape.rowMajor_val_three, Shape.rowMajor_val_two]
    show (2048 * β.val + u.val) * 4096 + o.val = (β.val * 2048 + u.val) * 4096 + o.val
    omega
  · show flat (V m c main_v0) (V m c main_arg1) (V m c main_v1) (V m c main_v2) (ix2 _ o) = _
    rw [flat_apply, result_apply, row_s_apply, row_b_apply, V_main_arg1]
    refine congrArg (fun z => z * _ + _) (Finset.sum_congr rfl fun p _ => ?_)
    rw [flat_x_apply m c _ p β u rfl]

/-- The run, read: the result array at `result` of the arguments, the arguments unchanged. -/
theorem run : θ_run defs (onTc (τ := τ) (main (F := Ideal))) ⟨m, fun _ => 0, ρ⟩ fun r => ∀ c : Dev nD,
      r.2.mem ((c.tc : Thread nD τ).loc main_v4)
        = result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v4 (Pipeline.mem_restRefs_of main_v4 (by decide) (by decide))).trans
          ((tail_value m c).trans (relaid_eq m c)),
        ((h c).2 main_arg0 (Pipeline.mem_restRefs_of main_arg0 (by decide) (by decide))).trans (W_main_arg0 m (dats m) c),
        ((h c).1 1).trans (((dats m 0 c).arrAt_in 1 rfl _).trans ((A_eq m c 1).trans (V_main_arg1 m c))),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c)⟩)
    (run_main m ρ)

end Cert.KernelIdeal.Final

end
-- ==== Proof.RefValue.lean ====
/-
  The reference, read entry by entry.  It converts the integer matrix to floats, multiplies row o by the scale s[o],
  contracts the activations with the scaled matrix along the 4096 input channels, and adds the bias broadcast over the
  first two axes.  So its entry (β, t, o) is (∑ p, x[β, t, p] · (q[o, p] · s[o])) + b[o]: every weight is scaled before
  the inner product.
-/
import proofs.«104973_j74783970558154_2_alg».proof.Proof.Gen.ReferenceIdeal.Read
import proofs.«104973_j74783970558154_2_alg».proof.Proof.Spec

noncomputable section

open Idealize.ShloMosaic Idealize.ShloMosaic.ValueIdx
open scoped BigOperators

namespace Cert.ReferenceIdeal.RefValue

open Cert.ReferenceIdeal Cert.ReferenceIdeal.Read Cert.QLinear

/-- The reference's last stage is the scaled-first arrangement of the result. -/
theorem reference_value (x0 : (⟨S4x2048x4096, .f32⟩ : BufTy).Contents (Elt Ideal)) (x1 : (⟨S4096x4096, .i32⟩ : BufTy).Contents (Elt Ideal))
    (x2 x3 : (⟨S4096, .f32⟩ : BufTy).Contents (Elt Ideal)) :
    val_main_v7 (F := Ideal) x0 x1 x2 x3 = scaledFirst x0 x1 x2 x3 := by
  funext i
  obtain ⟨β, u, o, rfl⟩ : ∃ (β : Fin 4) (u : Fin 2048) (o : Fin 4096), i = ix3 β u o := ⟨i 0, i 1, i 2, eq_ix3 i⟩
  have el : ∀ k : Fin 4096, lidx_main_v4 (ix3 β u o) k = ix3 β u k := fun k => funext fun a => Fin.ext (by
    match a with | ⟨0, _⟩ => rfl | ⟨1, _⟩ => rfl | ⟨2, _⟩ => rfl)
  have er : ∀ k : Fin 4096, ridx_main_v4 (ix3 β u o) k = ix2 o k := fun k => funext fun a => Fin.ext (by
    match a with | ⟨0, _⟩ => rfl | ⟨1, _⟩ => rfl)
  have es : ∀ k : Fin 4096, idx_main_v1 (idx_main_v2 (ix2 o k)) = ix1 o := fun k => funext fun a => Fin.ext (by
    match a with | ⟨0, _⟩ => rfl)
  have eb : idx_main_v5 (idx_main_v6 (ix3 β u o)) = ix1 o := funext fun a => Fin.ext (by
    match a with | ⟨0, _⟩ => rfl)
  rw [val_main_v7_apply, val_main_v4_apply, val_main_v6_apply, val_main_v5_apply]
  simp only [el, er, val_main_v3_apply, val_main_v0_apply, val_main_v2_apply, val_main_v1_apply, es, eb]
  rfl

end Cert.ReferenceIdeal.RefValue

end
-- ==== Proof.Finite.lean ====
/-
  What the precondition gives.  It says that |x| < +∞ for every entry of the activations, of the scales and of the
  biases.  An extended real whose absolute value max(a, −a) is below +∞ is neither +∞ nor −∞, so it is a real number.
  The proof needs this for the activations and the scales only.
-/
import proofs.«104973_j74783970558154_2_alg».proof.Pre_finite_inputs
import Idealize.ShloMosaic.Lib.ReduceAll
import Idealize.ShloMosaic.Lib.ValueIdx
import Idealize.ShloMosaic.PureOps.Ideal.Laws

noncomputable section

open Idealize.ShloMosaic Idealize.ShloMosaic.ValueIdx

namespace Cert.QLinear.Finite

open Cert.Pre_finite_inputs

instance : Subsingleton S_.Idx := ⟨fun a b => funext fun d => d.elim0⟩

/-- The word 0x7F800000 denotes +∞. -/
theorem inf_word : Ideal.ofBits .f32 0x7F800000#32 = ⊤ := by simp [Ideal.ofBits, Ideal.ieee]

/-- An extended real whose absolute value is below +∞ is a real number. -/
theorem real_of_abs_lt_top (a : EReal) (h : Ideal.cmp .olt (max a (-a)) ⊤ = 1#1) : ∃ r : ℝ, a = r := by
  induction a using EReal.rec
  · exfalso; revert h; simp [Ideal.cmp]
  · exact ⟨_, rfl⟩
  · exfalso; revert h; simp [Ideal.cmp]

/-- Under the precondition every activation and every scale is a real number. -/
theorem real_inputs [Facts] (a0 : FVec Ideal S4x2048x4096 .f32) (a1 : IVec S4096x4096 32) (a2 a3 : FVec Ideal S4096 .f32)
    (h : fn (F := Ideal) a0 a1 a2 a3 = fun _ => 1#1) :
    (∀ i, ∃ r : ℝ, a0 i = r) ∧ (∀ j, ∃ r : ℝ, a2 j = r) := by
  have h' := congrFun h ix0
  dsimp only [fn] at h'
  obtain ⟨h8, -⟩ := IntOp.andi_eq_one.1 h'
  obtain ⟨h3, h7⟩ := IntOp.andi_eq_one.1 h8
  refine ⟨fun i => ?_, fun j => ?_⟩
  · have e := Host.reduce_andi_all _ _ _ _ ix0 h3 i
    have e' : Ideal.cmp .olt (max (a0 i) (-(a0 i))) (Ideal.ofBits .f32 0x7F800000#32) = 1#1 := e
    rw [inf_word] at e'
    exact real_of_abs_lt_top _ e'
  · have e := Host.reduce_andi_all _ _ _ _ ix0 h7 j
    have e' : Ideal.cmp .olt (max (a2 j) (-(a2 j))) (Ideal.ofBits .f32 0x7F800000#32) = 1#1 := e
    rw [inf_word] at e'
    exact real_of_abs_lt_top _ e'

end Cert.QLinear.Finite

end
-- ==== Proof.lean ====
/-
  Per-channel quantized linear layer: the kernel and its reference compute the same function on finite inputs.

  Inputs: activations x : [4, 2048, 4096], an integer matrix q : [4096, 4096], scales s and biases b : [4096].
  Over the extended reals the kernel's result at (β, t, o) is (∑ p, x[β, t, p] · q[o, p]) · s[o] + b[o]: it flattens the
  first two axes, accumulates the inner product over sixteen blocks of 256 input channels in a scratch accumulator that
  is reset at the first block, and scales and shifts once at the last block.  The reference scales every weight first:
  (∑ p, x[β, t, p] · (q[o, p] · s[o])) + b[o].

    * Spec      the result as one formula; a real factor moves across a finite sum of reals;
    * Payload   the body's three stored values read at one entry;
    * Pieces    what one run of the body leaves in the accumulator and in the output block;
    * Blocks    which entries of the arrays each grid point's blocks are;
    * Steps     the accumulator from one grid point to the next;
    * Accum     by induction on the grid point, the accumulator is the inner product over the columns seen so far;
    * Final     the blocks written back tile the flattened result; the result array of the whole program;
    * RefValue  the reference read entry by entry;
    * Finite    the precondition makes the activations and the scales real.

  The two sides differ by moving the factor s[o] across the sum over p, which is valid because x and s are real (the
  precondition) and an integer read as a float is real.  The three programs run to the end with their arguments
  unchanged; the idealized kernel is the printed kernel read over the extended reals, with nothing rewritten.
-/
import proofs.«104973_j74783970558154_2_alg».proof.Defs
import proofs.«104973_j74783970558154_2_alg».proof.Proof.Gen.Kernel
import proofs.«104973_j74783970558154_2_alg».proof.Proof.Gen.Kernel.Skeleton
import proofs.«104973_j74783970558154_2_alg».proof.Proof.Gen.Kernel.Launch
import proofs.«104973_j74783970558154_2_alg».proof.Proof.Gen.Kernel.Points
import proofs.«104973_j74783970558154_2_alg».proof.Proof.Gen.Kernel.Frame
import proofs.«104973_j74783970558154_2_alg».proof.Proof.Gen.KernelIdeal
import proofs.«104973_j74783970558154_2_alg».proof.Proof.Gen.KernelIdeal.Skeleton
import proofs.«104973_j74783970558154_2_alg».proof.Proof.Gen.KernelIdeal.Launch
import proofs.«104973_j74783970558154_2_alg».proof.Proof.Gen.KernelIdeal.Points
import proofs.«104973_j74783970558154_2_alg».proof.Proof.Gen.KernelIdeal.Frame
import proofs.«104973_j74783970558154_2_alg».proof.Proof.Gen.ReferenceIdeal
import proofs.«104973_j74783970558154_2_alg».proof.Proof.Gen.ReferenceIdeal.Run
import proofs.«104973_j74783970558154_2_alg».proof.Proof.Gen.ReferenceIdeal.Read
import proofs.«104973_j74783970558154_2_alg».proof.Proof.Gen.Pre_finite_inputs
import proofs.«104973_j74783970558154_2_alg».proof.Proof.Final
import proofs.«104973_j74783970558154_2_alg».proof.Proof.RefValue
import proofs.«104973_j74783970558154_2_alg».proof.Proof.Finite
import Idealize.ShloMosaic.Adequacy
import Idealize.ShloMosaic.Init

noncomputable section

namespace Cert.Proof

open Idealize.ShloMosaic Idealize.SL.Sem

/-- The printed kernel runs to the end and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the arguments, both programs end with the result array at
    (∑ p, x[β, t, p] · q[o, p]) · s[o] + b[o]: the kernel by its run, the reference because its scaled-first sum equals
    this one when x and s are real. -/
theorem algebraic : Cert.algebraic_KernelIdeal_ReferenceIdeal := by
  intro m ρ m' ρ' hpre hagree
  refine ⟨fun c => Cert.QLinear.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Final.run m ρ, ?_⟩
  refine (θ_run Cert.ReferenceIdeal.defs _ _).mono (fun _ h c => ⟨?_, (h c).2⟩)
    (Cert.ReferenceIdeal.Value.run (F := Ideal) m' ρ')
  obtain ⟨hx, hs⟩ := Cert.QLinear.Finite.real_inputs _ _ _ _ (hpre c)
  rw [(h c).1, Cert.ReferenceIdeal.Read.val_main_v7_eq, Cert.ReferenceIdeal.RefValue.reference_value,
    (hagree c).1, (hagree c).2.1, (hagree c).2.2.1, (hagree c).2.2.2]
  exact Cert.QLinear.scaledFirst_eq_result _ _ _ _ hx hs

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
